-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) (main_arg3 : IVec S2048 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S256x2048 : Shape := ⟨2, ![256, 2048]⟩
abbrev S1x2048 : Shape := ⟨2, ![1, 2048]⟩

abbrev nBuf : Space → Nat
  | .hbm => 13
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S2048, .f32⟩
  | .hbm, ⟨5, _⟩ => ⟨S2048x1, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S2048, .f32⟩
  | .hbm, ⟨5, _⟩ => ⟨S2048x1, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  Masked dense layer, the mathematics only.

  The reference computes, for a row index p and a column index q,
      out p q = (∑ k, X p k * W k q) + b q,            W k q = (mask k as a real) * M k q.
  The kernel forms the same contraction in three passes over a two-term splitting of each operand,
      x = x_hi + x_lo,   w = w_hi + w_lo,
  and keeps hi*hi + hi*lo + lo*hi.  Read over the extended reals, where a change of float format is the identity,
  the high parts are the operands themselves and the low parts are the differences x - x and w - w, so the kernel's
  entry is
      ((∑ k, X p k * W k q) + ∑ k, X p k * (W k q - W k q)) + (∑ k, (X p k - X p k) * W k q) + b q.
  A difference a - a is 0 exactly when a is a real number (at an infinity it is not), so the two extra sums vanish,
  and the two programs agree, when every entry of X and of W is real.  Nothing else about the extended reals is used:
  a * 0 = 0 and 0 * a = 0 hold for every extended real, and adding 0 changes nothing.
-/
import Idealize.ShloMosaic.PureOps.Ideal
import Idealize.ShloMosaic.Lib.ValueIdx

noncomputable section

namespace Cert.MaskedDense

open Idealize.ShloMosaic Idealize.ShloMosaic.ValueIdx

/-- The shapes of the layer: activations and output, weights, bias and mask. -/
abbrev SAct : Shape := ⟨2, ![8192, 2048]⟩
abbrev SWgt : Shape := ⟨2, ![2048, 2048]⟩
abbrev SVec : Shape := ⟨1, ![2048]⟩

/-- An extended real that is a real number minus itself is zero. -/
theorem sub_self_of_real {a : EReal} (h : ∃ r : ℝ, a = (r : EReal)) : a - a = 0 := by
  obtain ⟨r, rfl⟩ := h
  rw [← EReal.coe_sub, sub_self, EReal.coe_zero]

/-- THE LAW.  Over any finite index type: when every x k and every w k is a real number, the three-pass sum
    hi*hi + hi*lo + lo*hi, with the low parts the differences w - w and x - x, is the plain sum of products. -/
theorem three_pass_sum {K : Type} [Fintype K] (x w : K → EReal)
    (hx : ∀ k, ∃ r : ℝ, x k = (r : EReal)) (hw : ∀ k, ∃ r : ℝ, w k = (r : EReal)) :
    ((∑ k, x k * w k) + ∑ k, x k * (w k - w k)) + ∑ k, (x k - x k) * w k = ∑ k, x k * w k := by
  have h1 : ∑ k, x k * (w k - w k) = 0 :=
    Finset.sum_eq_zero fun k _ => by rw [sub_self_of_real (hw k), mul_zero]
  have h2 : ∑ k, (x k - x k) * w k = 0 :=
    Finset.sum_eq_zero fun k _ => by rw [sub_self_of_real (hx k), zero_mul]
  rw [h1, h2, add_zero, add_zero]

/-- The kernel's entry at row p, column q: three contractions over k and the bias. -/
def threePassAt (X : SAct.Idx → EReal) (W L : SWgt.Idx → EReal) (b : SVec.Idx → EReal) (p : Fin 8192) (q : Fin 2048) : EReal :=
  (((∑ k : Fin 2048, X (ix2 p k) * W (ix2 k q)) + ∑ k : Fin 2048, X (ix2 p k) * L (ix2 k q))
    + ∑ k : Fin 2048, (X (ix2 p k) - X (ix2 p k)) * W (ix2 k q)) + b (ix1 q)

/-- The reference's entry at row p, column q: one contraction over k and the bias. -/
def onePassAt (X : SAct.Idx → EReal) (W : SWgt.Idx → EReal) (b : SVec.Idx → EReal) (p : Fin 8192) (q : Fin 2048) : EReal :=
  (∑ k : Fin 2048, X (ix2 p k) * W (ix2 k q)) + b (ix1 q)

/-- The kernel's output array as one function of the activations, the two weight arrays it is given and the bias. -/
def threePass (X : SAct.Idx → EReal) (W L : SWgt.Idx → EReal) (b : SVec.Idx → EReal) : SAct.Idx → EReal :=
  fun i => threePassAt X W L b (i 0) (i 1)

/-- The reference's output array as one function of the activations, the weights and the bias. -/
def onePass (X : SAct.Idx → EReal) (W : SWgt.Idx → EReal) (b : SVec.Idx → EReal) : SAct.Idx → EReal :=
  fun i => onePassAt X W b (i 0) (i 1)

/-- The low part of a weight array read over the extended reals: each entry minus itself. -/
def selfDiff (W : SWgt.Idx → EReal) : SWgt.Idx → EReal := fun i => W i - W i

/-- With real activations and real weights, the three-pass array over the low part W - W is the one-pass array. -/
theorem threePass_eq_onePass (X : SAct.Idx → EReal) (W : SWgt.Idx → EReal) (b : SVec.Idx → EReal)
    (hX : ∀ i, ∃ r : ℝ, X i = (r : EReal)) (hW : ∀ i, ∃ r : ℝ, W i = (r : EReal)) :
    threePass X W (selfDiff W) b = onePass X W b := by
  funext i
  unfold threePass onePass threePassAt onePassAt selfDiff
  rw [three_pass_sum (fun k : Fin 2048 => X (ix2 (i 0) k)) (fun k : Fin 2048 => W (ix2 k (i 1)))
    (fun k => hX _) (fun k => hW _)]

/-- The masked weights: row k of M scaled by the mask's k-th integer, read as a real number. -/
def maskedWeights (mask : SVec.Idx → BitVec 32) (M : SWgt.Idx → EReal) : SWgt.Idx → EReal :=
  fun i => (((mask (ix1 (i 0))).toInt : ℝ) : EReal) * M i

/-- Masked weights are real wherever the weights are. -/
theorem maskedWeights_real (mask : SVec.Idx → BitVec 32) (M : SWgt.Idx → EReal)
    (hM : ∀ i, ∃ r : ℝ, M i = (r : EReal)) (i : SWgt.Idx) : ∃ r : ℝ, maskedWeights mask M i = (r : EReal) := by
  obtain ⟨r, hr⟩ := hM i
  exact ⟨((mask (ix1 (i 0))).toInt : ℝ) * r, by unfold maskedWeights; rw [hr, ← EReal.coe_mul]⟩

end Cert.MaskedDense

end
-- ==== Proof.RefValue.lean ====
/-
  The reference, read index by index.

  Its result at (p, q) is the contraction over k of X (p, k) with the masked weights at (k, q), plus the bias at q:
  the mask's integer is converted to a real, laid along a column and repeated over the columns (so entry (k, q) of
  the broadcast is the mask's k-th value), multiplied into M, contracted with X over the shared axis, and the bias
  row is repeated over the rows.
-/
import proofs.«136549_j83966610637560_2_alg».proof.Proof.Gen.ReferenceIdeal.Read
import proofs.«136549_j83966610637560_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.MaskedDense

/-- The left operand of the contraction at output (p, q) and contraction index k sits at (p, k). -/
theorem lidx_eq (p : Fin 8192) (q k : Fin 2048) : lidx_main_v4 (ix2 p q) k = ix2 p k :=
  funext fun a => Fin.ext (by match a with | ⟨0, _⟩ => rfl | ⟨1, _⟩ => rfl)

/-- The right operand sits at (k, q). -/
theorem ridx_eq (p : Fin 8192) (q k : Fin 2048) : ridx_main_v4 (ix2 p q) k = ix2 k q :=
  funext fun a => Fin.ext (by match a with | ⟨0, _⟩ => rfl | ⟨1, _⟩ => rfl)

/-- The bias row repeated over the rows reads the bias at the column. -/
theorem bias_idx_eq (p : Fin 8192) (q : Fin 2048) : idx_main_v5 (idx_main_v6 (ix2 p q)) = ix1 q :=
  funext fun a => Fin.ext (by match a with | ⟨0, _⟩ => rfl)

/-- The mask column repeated over the columns reads the mask at the row. -/
theorem mask_idx_eq (k q : Fin 2048) : idx_main_v1 (idx_main_v2 (ix2 k q)) = ix1 k :=
  funext fun a => Fin.ext (by match a with | ⟨0, _⟩ => rfl)

/-- The product the reference contracts with is the masked weight array. -/
theorem weights_eq (M : (⟨S2048x2048, .f32⟩ : BufTy).Contents (Elt Ideal)) (mask : (⟨S2048, .i32⟩ : BufTy).Contents (Elt Ideal))
    (k q : Fin 2048) : val_main_v3 (F := Ideal) M mask (ix2 k q) = maskedWeights mask M (ix2 k q) := by
  rw [val_main_v3_apply, val_main_v2_apply, val_main_v1_apply, val_main_v0_apply, mask_idx_eq]
  rfl

/-- The reference's result array is the one-pass array of the activations, the masked weights and the bias. -/
theorem result_eq (X : (⟨S8192x2048, .f32⟩ : BufTy).Contents (Elt Ideal)) (M : (⟨S2048x2048, .f32⟩ : BufTy).Contents (Elt Ideal))
    (b : (⟨S2048, .f32⟩ : BufTy).Contents (Elt Ideal)) (mask : (⟨S2048, .i32⟩ : BufTy).Contents (Elt Ideal)) :
    val_main_v7 (F := Ideal) X M b mask = onePass X (maskedWeights mask M) b := by
  funext i
  obtain ⟨p, q, rfl⟩ : ∃ (p : Fin 8192) (q : Fin 2048), i = ix2 p q := ⟨i 0, i 1, eq_ix2 i⟩
  rw [val_main_v7_apply, val_main_v4_apply, val_main_v6_apply, val_main_v5_apply, bias_idx_eq]
  show (∑ k : Fin 2048, X (lidx_main_v4 (ix2 p q) k) * val_main_v3 (F := Ideal) M mask (ridx_main_v4 (ix2 p q) k)) + b (ix1 q)
    = (∑ k : Fin 2048, X (ix2 p k) * maskedWeights mask M (ix2 k q)) + b (ix1 q)
  refine congrArg (· + b (ix1 q)) (Finset.sum_congr rfl fun k _ => ?_)
  rw [lidx_eq, ridx_eq, weights_eq]

end Cert.ReferenceIdeal.RefValue

end
-- ==== Proof.Payload.lean ====
/-
  The kernel body's result at an index.

  The body loads a 256-row block x of the activations, the two whole weight arrays w and l it is given and the bias,
  and stores, at row p and column q of the block,
      ((∑ k, x p k * w k q) + ∑ k, x p k * l k q) + (∑ k, (x p k - x p k) * w k q) + bias q.
  Each of the three matrix products starts from a zero accumulator, so it is the plain sum over the contracted axis
  of the products; the narrowing of x, and of x - x, to the shorter float format is the identity on extended reals;
  the casts of the weight arrays to their own shape are identities; the bias is laid out as one row and that row is
  repeated over the 256 rows.
-/
import proofs.«136549_j83966610637560_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- The left operand's index at output (p, q): its row is the output's row. -/
theorem lhs_row (i : S256x2048.Idx) (c : dot_S256x2048_S2048x2048_S256x2048_1_0_0_1_n_n.contr.Idx) : (dot_S256x2048_S2048x2048_S256x2048_1_0_0_1_n_n.lhsIdx i c 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- Its column is the contraction index. -/
theorem lhs_col (i : S256x2048.Idx) (c : dot_S256x2048_S2048x2048_S256x2048_1_0_0_1_n_n.contr.Idx) : (dot_S256x2048_S2048x2048_S256x2048_1_0_0_1_n_n.lhsIdx i c 1).val = (c ⟨0, by decide⟩).val :=
  dot_S256x2048_S2048x2048_S256x2048_1_0_0_1_n_n.lhsIdx_val_of_single rfl i c
/-- The right operand's row is the contraction index. -/
theorem rhs_row (i : S256x2048.Idx) (c : dot_S256x2048_S2048x2048_S256x2048_1_0_0_1_n_n.contr.Idx) : (dot_S256x2048_S2048x2048_S256x2048_1_0_0_1_n_n.rhsIdx i c 0).val = (c ⟨0, by decide⟩).val :=
  dot_S256x2048_S2048x2048_S256x2048_1_0_0_1_n_n.rhsIdx_val_of_single rfl i c
/-- Its column is the output's column. -/
theorem rhs_col (i : S256x2048.Idx) (c : dot_S256x2048_S2048x2048_S256x2048_1_0_0_1_n_n.contr.Idx) : (dot_S256x2048_S2048x2048_S256x2048_1_0_0_1_n_n.rhsIdx i c 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A matrix product into a zero accumulator, read at (p, q): the sum over k of left (p, k) times right (k, q). -/
theorem matmul_at (l : FVec Ideal S256x2048 .bf16) (r : FVec Ideal S2048x2048 .bf16) (p : Fin 256) (q : Fin 2048) :
    matmul dot_S256x2048_S2048x2048_S256x2048_1_0_0_1_n_n none l r (constant (F := Ideal) S256x2048 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact lhs_row _ _
    | ⟨1, _⟩ => exact (lhs_col _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (rhs_row _ _).trans hk
    | ⟨1, _⟩ => exact rhs_col _ _)
  rw [el, er]

/-- The body's stored value at row p, column q of the block, from its four loads. -/
theorem payload_at (x : Vec Ideal S256x2048 .f32) (w l : Vec Ideal S2048x2048 .bf16) (bias : Vec Ideal S2048 .f32)
    (p : Fin 256) (q : Fin 2048) :
    k0_pay1 (F := Ideal) x w l bias (ix2 p q)
      = (((∑ k : Fin 2048, x (ix2 p k) * w (ix2 k q)) + ∑ k : Fin 2048, x (ix2 p k) * l (ix2 k q))
          + ∑ k : Fin 2048, (x (ix2 p k) - x (ix2 p k)) * w (ix2 k q)) + bias (ix1 q) := by
  unfold k0_pay1
  show ((matmul dot_S256x2048_S2048x2048_S256x2048_1_0_0_1_n_n none (truncf .bf16 x bitsLt_bf16_f32) (shapeCast S2048x2048 w shapeCasts_S2048x2048_S2048x2048) (constant (F := Ideal) S256x2048 .f32 0x00000000#32) (ix2 p q)
        + matmul dot_S256x2048_S2048x2048_S256x2048_1_0_0_1_n_n none (truncf .bf16 x bitsLt_bf16_f32) (shapeCast S2048x2048 l shapeCasts_S2048x2048_S2048x2048) (constant (F := Ideal) S256x2048 .f32 0x00000000#32) (ix2 p q))
        + matmul dot_S256x2048_S2048x2048_S256x2048_1_0_0_1_n_n none (truncf .bf16 (subf x x) bitsLt_bf16_f32) (shapeCast S2048x2048 w shapeCasts_S2048x2048_S2048x2048) (constant (F := Ideal) S256x2048 .f32 0x00000000#32) (ix2 p q))
      + broadcastTo S256x2048 (shapeCast S1x2048 bias shapeCasts_S2048_S1x2048) broadcasts_S1x2048_S256x2048 (ix2 p q) = _
  rw [matmul_at, matmul_at, matmul_at, shapeCast_self, shapeCast_self, broadcastTo_1b_ab_apply, shapeCast_a_1a_apply]
  rfl

end Cert.KernelIdeal.Body

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.Blocks.lean ====
/-
  From blocks to the whole output array.

  The grid has 32 points.  At point t the body sees rows 256 t .. 256 t + 255 of the activations, the two weight
  arrays whole, and the bias whole, and writes rows 256 t .. 256 t + 255 of the output.  So what point t writes is
  block t of ONE array, the three-pass array of the activations, the two weight arrays and the bias (Spec); the 32
  blocks tile the 8192 rows (row r lies in block r / 256), and the output ends holding that array.

  The two weight arrays are computed before the grid runs.  The first is the masked weights W (row k of M scaled by
  the mask's k-th integer); narrowing it to the shorter float format is the identity on extended reals.  The second is
  W minus the first widened back, that is W - W entry by entry, narrowed again.
-/
import proofs.«136549_j83966610637560_2_alg».proof.Proof.Gen.KernelIdeal.Value
import proofs.«136549_j83966610637560_2_alg».proof.Proof.Spec
import proofs.«136549_j83966610637560_2_alg».proof.Proof.Payload
import proofs.«136549_j83966610637560_2_alg».proof.Proof.LibColumnBroadcast
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.MaskedDense
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- Where each window's block sits at grid point t, decided over the 32 points: the activations' and the output's
    block is block row t; the weight arrays and the bias are always block 0 (the whole array). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-! ## The input blocks at a point -/

/-- The activations' block at point t, at (p, k), is the activations at row 256 t + p, column k. -/
theorem act_block (c : Dev nD) (t : Fin cfg0.N) (ht : t.val < 32) (p : Fin 256) (k : Fin 2048) :
    (iblk m c 0 t : Vec Ideal S256x2048 .f32) (ix2 p k)
      = (V m c main_arg0 : S8192x2048.Idx → EReal) (ix2 (⟨t.val * 256 + p.val, by omega⟩ : Fin 8192) k) := by
  obtain ⟨e0, e1, -⟩ := block_positions t
  unfold iblk
  rw [View.read_apply]
  show V m c main_arg0 _ = V m c main_arg0 _
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

/-- The first weight array's block at any point is the whole array. -/
theorem hi_block (c : Dev nD) (t : Fin cfg0.N) (k q : Fin 2048) :
    (iblk m c 1 t : Vec Ideal S2048x2048 .bf16) (ix2 k q) = (V m c main_v4 : S2048x2048.Idx → EReal) (ix2 k q) := by
  obtain ⟨-, -, e0, e1, -⟩ := block_positions t
  unfold iblk
  rw [View.read_apply]
  show V m c main_v4 _ = V m c main_v4 _
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * q.val = q.val; rw [e1]; omega

/-- The second weight array's block at any point is the whole array. -/
theorem lo_block (c : Dev nD) (t : Fin cfg0.N) (k q : Fin 2048) :
    (iblk m c 2 t : Vec Ideal S2048x2048 .bf16) (ix2 k q) = (V m c main_v7 : S2048x2048.Idx → EReal) (ix2 k q) := by
  obtain ⟨-, -, -, -, e0, e1, -⟩ := block_positions t
  unfold iblk
  rw [View.read_apply]
  show V m c main_v7 _ = V m c main_v7 _
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 2048 + 1 * q.val = q.val; rw [e1]; omega

/-- The bias' block at any point is the whole bias. -/
theorem bias_block (c : Dev nD) (t : Fin cfg0.N) (q : Fin 2048) :
    (iblk m c 3 t : Vec Ideal S2048 .f32) (ix1 q) = (V m c main_arg2 : S2048.Idx → EReal) (ix1 q) := by
  obtain ⟨-, -, -, -, -, -, e0, -⟩ := block_positions t
  unfold iblk
  rw [View.read_apply]
  show V m c main_arg2 _ = V m c main_arg2 _
  refine congrArg _ (funext fun a => Fin.ext ?_)
  match a with
  | ⟨0, _⟩ => show win0_3.index t (0 : Fin 1) * 2048 + 1 * q.val = q.val; rw [e0]; omega

/-! ## What a point writes -/

/-- The body's stored value at (p, q), from blocks that are block row r of X and the whole of W, L and b, is the
    three-pass entry at row 256 r + p, column q. -/
theorem point_value (X : SAct.Idx → EReal) (W L : SWgt.Idx → EReal) (b : SVec.Idx → EReal)
    (x : Vec Ideal S256x2048 .f32) (w l : Vec Ideal S2048x2048 .bf16) (bias : Vec Ideal S2048 .f32)
    (r : ℕ) (hr : r < 32)
    (hx : ∀ (p : Fin 256) (k : Fin 2048), x (ix2 p k) = X (ix2 (⟨r * 256 + p.val, by omega⟩ : Fin 8192) k))
    (hw : ∀ k q : Fin 2048, w (ix2 k q) = W (ix2 k q)) (hl : ∀ k q : Fin 2048, l (ix2 k q) = L (ix2 k q))
    (hb : ∀ q : Fin 2048, bias (ix1 q) = b (ix1 q)) (p : Fin 256) (q : Fin 2048) :
    k0_pay1 (F := Ideal) x w l bias (ix2 p q) = threePassAt X W L b (⟨r * 256 + p.val, by omega⟩ : Fin 8192) q := by
  rw [Body.payload_at]
  unfold threePassAt
  simp only [hx, hw, hl, hb]

/-- WHAT POINT t WRITES BACK is block t of the three-pass array of the arrays the grid finds. -/
theorem flushed_eq (c : Dev nD) (t : Fin cfg0.N) :
    (dats m 0 c).flushed 4 t = ((cfg0.win 4).blk t).view.read (Elt Ideal)
      (threePass (V m c main_arg0) (V m c main_v4) (V m c main_v7) (V m c main_arg2)) := by
  have hN : cfg0.N = 32 := N_0
  have ht : t.val < 32 := by have := t.isLt; omega
  obtain ⟨-, -, -, -, -, -, -, e40, e41⟩ := block_positions t
  rw [Value.flushed4]
  unfold out0_4
  rw [View.canon_unit_zero zeros2]
  simp only [View.ld_unit_zero (S := S256x2048) zeros2, View.ld_unit_zero (S := S2048x2048) zeros2, View.ld_unit_zero (S := S2048) zeros1]
  funext j
  obtain ⟨p, q, rfl⟩ : ∃ (p : Fin 256) (q : Fin 2048), j = ix2 p q := ⟨j 0, j 1, eq_ix2 j⟩
  show k0_pay1 (F := Ideal) (iblk m c 0 t) (iblk m c 1 t) (iblk m c 2 t) (iblk m c 3 t) (ix2 p q)
    = threePass (V m c main_arg0) (V m c main_v4) (V m c main_v7) (V m c main_arg2) (((cfg0.win 4).blk t).view.emb (ix2 p q))
  refine (point_value (V m c main_arg0) (V m c main_v4) (V m c main_v7) (V m c main_arg2)
    (iblk m c 0 t) (iblk m c 1 t) (iblk m c 2 t) (iblk m c 3 t) t.val ht
    (act_block m c t ht) (hi_block m c t) (lo_block m c t) (bias_block m c t) p q).trans ?_
  have r0 : ((((cfg0.win 4).blk t).view.emb (ix2 p q)) 0 : Fin 8192) = (⟨t.val * 256 + p.val, by omega⟩ : Fin 8192) :=
    Fin.ext (by show win0_4.index t (0 : Fin 2) * 256 + 1 * p.val = t.val * 256 + p.val; rw [e40]; omega)
  have r1 : ((((cfg0.win 4).blk t).view.emb (ix2 p q)) 1 : Fin 2048) = q :=
    Fin.ext (by show win0_4.index t (1 : Fin 2) * 2048 + 1 * q.val = q.val; rw [e41]; omega)
  unfold threePass
  rw [r0, r1]

/-! ## The blocks tile the array -/

/-- An index of the output is in point t's block iff each coordinate is in the block's range on its axis. -/
theorem mem_block (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v8).slice (win0_4.rect t)).set ↔ _
  rw [View.set_slice_whole, Rect.mem_set_unit]
  exact Iff.rfl

/-- Every index of the output lies in the block of the point its row selects: row r is in block r / 256. -/
theorem covered (i : S8192x2048.Idx) : ∃ t : Fin cfg0.N, (cfg0.win 4).flush t = true ∧ i ∈ ((cfg0.win 4).blk t).view.set := by
  have hN : cfg0.N = 32 := N_0
  have hi0 : (i 0).val < 8192 := (i 0).isLt
  have hi1 : (i 1).val < 2048 := (i 1).isLt
  obtain ⟨t, ht⟩ : ∃ t : Fin cfg0.N, t.val = (i 0).val / 256 := ⟨⟨(i 0).val / 256, by omega⟩, rfl⟩
  obtain ⟨-, -, -, -, -, -, -, e40, e41⟩ := block_positions t
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 2048 ≤ (i 1).val ∧ (i 1).val < win0_4.index t (1 : Fin 2) * 2048 + 2048
    rw [e41]; omega

/-- THE OUTPUT ARRAY after the grid has run: the three-pass array of the arrays the grid finds. -/
theorem final (c : Dev nD) :
    (dats m 0 c).arrAt 4 cfg0.N = threePass (V m c main_arg0) (V m c main_v4) (V m c main_v7) (V m c main_arg2) :=
  (dats m 0 c).arrAt_eq_of_cover 4 _ (fun t _ => flushed_eq m c t) covered

/-! ## The two weight arrays the grid finds -/

/-- The first weight array is the masked weights. -/
theorem hi_array (c : Dev nD) :
    (V m c main_v4 : S2048x2048.Idx → EReal)
      = maskedWeights (m ((c : Thread nD τ).loc main_arg3)) (m ((c : Thread nD τ).loc main_arg1)) := by
  have e : (V m c main_v4 : S2048x2048.Idx → EReal)
      = truncf .bf16 (mulf (broadcastInDim S2048x2048 ![0, 1] bcast_S2048x1_S2048x2048_0_1
          (broadcastInDim S2048x1 ![0] bcast_S2048_S2048x1_0 (sitofp (F := Ideal) .f32 (m (c, Proc.devRef .tc main_arg3)))))
          (m (c, Proc.devRef .tc main_arg1))) bitsLt_bf16_f32 := by
    dsimp only [Gen.V, Gen.hostOps0]; after_results
  rw [e]
  funext i
  obtain ⟨k, q, rfl⟩ : ∃ (k q : Fin 2048), i = ix2 k q := ⟨i 0, i 1, eq_ix2 i⟩
  show (broadcastInDim S2048x2048 ![0, 1] bcast_S2048x1_S2048x2048_0_1
          (broadcastInDim S2048x1 ![0] bcast_S2048_S2048x1_0 (sitofp (F := Ideal) .f32 (m (c, Proc.devRef .tc main_arg3)))) (ix2 k q))
        * (m (c, Proc.devRef .tc main_arg1) : S2048x2048.Idx → EReal) (ix2 k q) = _
  rw [Cert.Lib.broadcastInDim_column_apply]
  rfl

/-- The second weight array is, entry by entry, the first minus itself: widening the narrowed first array back is
    the identity, and so is the final narrowing. -/
theorem lo_array (c : Dev nD) : (V m c main_v7 : S2048x2048.Idx → EReal) = selfDiff (V m c main_v4) := by
  dsimp only [Gen.V, Gen.hostOps0]
  after_results
  all_goals rfl

/-- THE OUTPUT ARRAY as a function of the arguments: the three-pass array of the activations, the masked weights,
    their difference with themselves, and the bias. -/
theorem final_args (c : Dev nD) :
    (dats m 0 c).arrAt 4 cfg0.N
      = threePass (m ((c : Thread nD τ).loc main_arg0))
          (maskedWeights (m ((c : Thread nD τ).loc main_arg3)) (m ((c : Thread nD τ).loc main_arg1)))
          (selfDiff (maskedWeights (m ((c : Thread nD τ).loc main_arg3)) (m ((c : Thread nD τ).loc main_arg1))))
          (m ((c : Thread nD τ).loc main_arg2)) := by
  rw [final, lo_array, hi_array, V_main_arg0, V_main_arg2]

/-! ## The run, read -/

/-- Every weakly fair execution ends with the output at the three-pass array of the arguments, the arguments unchanged. -/
theorem run : θ_run defs (onTc (τ := τ) (main (F := Ideal))) ⟨m, fun _ => 0, ρ⟩ fun r => ∀ c : Dev nD,
      r.2.mem ((c : Thread nD τ).loc main_v8)
        = threePass (m ((c : Thread nD τ).loc main_arg0))
            (maskedWeights (m ((c : Thread nD τ).loc main_arg3)) (m ((c : Thread nD τ).loc main_arg1)))
            (selfDiff (maskedWeights (m ((c : Thread nD τ).loc main_arg3)) (m ((c : Thread nD τ).loc main_arg1))))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩) (Value.run_blocks m ρ)

end Cert.KernelIdeal.Whole

end
-- ==== Proof.Finite.lean ====
/-
  What the precondition says.

  The precondition is the conjunction of three tests, one per float input: every entry's absolute value is below
  +infinity.  An extended real whose absolute value max a (-a) is below +infinity is neither infinity, so it is a
  real number.  Only the tests of the activations and of the weights are used: the bias enters both programs the same
  way, and the mask is an integer array.
-/
import proofs.«136549_j83966610637560_2_alg».proof.Pre_finite_inputs
import Idealize.ShloMosaic.PureOps.Ideal.Laws
import Idealize.ShloMosaic.Lib.ValueIdx
import Idealize.ShloMosaic.Lib.ReduceAll

noncomputable section

namespace Cert.Pre_finite_inputs.Reals

open Cert.Pre_finite_inputs Idealize.ShloMosaic

/-- The rank-0 shape has one index. -/
instance : Subsingleton S_.Idx := ⟨fun a b => funext fun d => d.elim0⟩

/-- An extended real whose absolute value compares below the +infinity pattern is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every activation and every weight is a real number. -/
theorem inputs_real (X : FVec Ideal S8192x2048 .f32) (M : FVec Ideal S2048x2048 .f32) (b : FVec Ideal S2048 .f32)
    (mask : IVec S2048 32) (h : fn (F := Ideal) X M b mask = fun _ => 1#1) :
    (∀ i, ∃ r : ℝ, X i = (r : EReal)) ∧ (∀ i, ∃ r : ℝ, M i = (r : EReal)) := by
  have h0 := congrFun h ValueIdx.ix0
  dsimp only [fn] at h0
  obtain ⟨h01, -⟩ := IntOp.andi_eq_one.1 h0
  obtain ⟨hX, hM⟩ := IntOp.andi_eq_one.1 h01
  exact ⟨fun i => real_of_abs_lt_inf (X i) (Host.reduce_andi_all _ _ _ _ _ hX i),
    fun i => real_of_abs_lt_inf (M i) (Host.reduce_andi_all _ _ _ _ _ hM i)⟩

end Cert.Pre_finite_inputs.Reals

end
-- ==== Proof.lean ====
/-
  A dense layer whose weight rows are masked: out = X @ (mask[:, None] * M) + b, activations 8192 x 2048, weights
  2048 x 2048, against a kernel that tiles the 8192 rows into 32 blocks of 256 and forms the product in three passes
  over two-term splittings of both operands (hi*hi + hi*lo + lo*hi).

  Over the extended reals a change of float format is the identity, so the splittings are x = x + (x - x) and
  W = W + (W - W), and the kernel's entry is the reference's plus two sums whose every term has a factor a - a.
  Such a factor is 0 exactly when a is a real number, which is what the precondition says of every activation and
  every weight (the mask's integers are real whatever they are).  The modules:
    Spec       the two arrays as functions of the arguments, and the law that joins them for real entries;
    RefValue   the reference's result is the one-pass array;
    Payload    the kernel body's stored value at an index, as three sums and the bias;
    Blocks     the 32 blocks tile the output, which ends at the three-pass array;
    Finite     the precondition makes every activation and weight real;
    LibColumnBroadcast   a vector repeated over the columns of a matrix, read at an index.
  The one rewrite the idealized kernel carries (widening a narrowed block back is the identity) is the rule's own
  statement.
-/
import proofs.«136549_j83966610637560_2_alg».proof.Defs
import proofs.«136549_j83966610637560_2_alg».proof.Proof.Gen.Kernel
import proofs.«136549_j83966610637560_2_alg».proof.Proof.Gen.Kernel.Skeleton
import proofs.«136549_j83966610637560_2_alg».proof.Proof.Gen.Kernel.Launch
import proofs.«136549_j83966610637560_2_alg».proof.Proof.Gen.Kernel.Points
import proofs.«136549_j83966610637560_2_alg».proof.Proof.Gen.Kernel.Frame
import proofs.«136549_j83966610637560_2_alg».proof.Proof.Gen.KernelIdeal
import proofs.«136549_j83966610637560_2_alg».proof.Proof.Gen.KernelIdeal.Skeleton
import proofs.«136549_j83966610637560_2_alg».proof.Proof.Gen.KernelIdeal.Launch
import proofs.«136549_j83966610637560_2_alg».proof.Proof.Gen.KernelIdeal.Points
import proofs.«136549_j83966610637560_2_alg».proof.Proof.Gen.KernelIdeal.Frame
import proofs.«136549_j83966610637560_2_alg».proof.Proof.Gen.ReferenceIdeal
import proofs.«136549_j83966610637560_2_alg».proof.Proof.Gen.KernelIdeal.Value
import proofs.«136549_j83966610637560_2_alg».proof.Proof.Gen.ReferenceIdeal.Run
import proofs.«136549_j83966610637560_2_alg».proof.Proof.Gen.ReferenceIdeal.Read
import proofs.«136549_j83966610637560_2_alg».proof.Proof.Gen.Pre_finite_inputs
import proofs.«136549_j83966610637560_2_alg».proof.Proof.Spec
import proofs.«136549_j83966610637560_2_alg».proof.Proof.RefValue
import proofs.«136549_j83966610637560_2_alg».proof.Proof.Blocks
import proofs.«136549_j83966610637560_2_alg».proof.Proof.Finite
import Idealize.ShloMosaic.Adequacy
import Idealize.ShloMosaic.Init

noncomputable section

namespace Cert.Proof

open Idealize.ShloMosaic Idealize.SL.Sem Cert.MaskedDense

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel's one rewrite: a 256 x 2048 block narrowed to the shorter format and widened back is
    itself over the extended reals, and the rounding through that format at the word level. -/
theorem preserves : Cert.preserves_Kernel_KernelIdeal :=
  IdealRules.truncf_extf.statement Cert.KernelIdeal.S256x2048 .f32 .bf16

/-- From agreeing arguments whose activations and weights are real, both programs end with the one-pass array of
    the activations, the masked weights and the bias: the kernel's three-pass array equals it by the law for real
    entries, the reference's result is it index by index. -/
theorem algebraic : Cert.algebraic_KernelIdeal_ReferenceIdeal := by
  intro m ρ m' ρ' hpre hagree
  refine ⟨fun c => onePass (m ((c.tc : Thread Cert.KernelIdeal.nD Cert.KernelIdeal.τ).loc Cert.KernelIdeal.main_arg0))
      (maskedWeights (m ((c.tc : Thread Cert.KernelIdeal.nD Cert.KernelIdeal.τ).loc Cert.KernelIdeal.main_arg3))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Whole.run m ρ)
    obtain ⟨hX, hM⟩ := Cert.Pre_finite_inputs.Reals.inputs_real _ _ _ _ (hpre c)
    exact threePass_eq_onePass _ _ _ hX (maskedWeights_real _ _ hM)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
